-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S1024 : Shape := ⟨1, ![1024]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x2048 .f32) (main_arg1 : FVec F S1024 .f32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S65536x2048 : Shape := ⟨2, ![65536, 2048]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S65536x2048, .f32⟩
  | .hbm, ⟨1, _⟩ => ⟨S1024, .f32⟩
  | .hbm, ⟨2, _⟩ => ⟨S1x1024, .f32⟩
  | .hbm, ⟨3, _⟩ => ⟨S65536x2048, .f32⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1024x2048, .f32⟩
  | .local _ .vmem, ⟨4, _⟩ => ⟨S1024x2048, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  concatenates_S1024x1024_S1024x1024_S1024x2048_d1 : Shape.Concatenates [S1024x1024, S1024x1024] S1024x2048 1
  inb_S1024x2048_S1024x2048_0_0 : ∀ a, (![0, 0] : Fin 2 → Nat) a + S1024x2048.size a ≤ S1024x2048.size a
  h_S1024x2048 : 0 < S1024x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S65536x2048.size a
  hwx0_0 : ∀ i : grid0.Coords, EltTy.bits .f32 = 32 ∨ (Rect.block (s := S65536x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S65536x2048.size a
  hwx0_2 : ∀ i : grid0.Coords, EltTy.bits .f32 = 32 ∨ (Rect.block (s := S65536x2048) S1024x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x2048 : Shape := ⟨2, ![65536, 2048]⟩
abbrev S1024 : Shape := ⟨1, ![1024]⟩
abbrev S65536x1024 : Shape := ⟨2, ![65536, 1024]⟩
abbrev S_ : Shape := ⟨0, ![]⟩
abbrev S1x1024 : Shape := ⟨2, ![1, 1024]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S1024, .f32⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .i32⟩
  | .hbm, ⟨15, _⟩ => ⟨S1, .i32⟩
  | .hbm, ⟨16, _⟩ => ⟨S65536x2048, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  slices_S65536x2048_S65536x1024_0_1024 : S65536x2048.Slices ![0, 1024] S65536x1024
  bcast_S_S65536x1024 : S_.BroadcastsInDim S65536x1024 (![] : Fin 0 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S1 : S_.BroadcastsInDim S1 (![] : Fin 0 → Fin S1.rank)
  scatter_S65536x2048_S1_S65536x1024_01_n_1_0_wf : ScatterDims.WF S65536x2048 S1 S65536x1024 [0, 1] [] [1] 0

variable [Facts₀]

def scatter_S65536x2048_S1_S65536x1024_01_n_1_0 : ScatterDims S65536x2048 S1 S65536x1024 where
  updateWindowDims := [0, 1]
  insertedWindowDims := []
  scatterDimsToOperandDims := [1]
  indexVectorDim := 0
  wf := scatter_S65536x2048_S1_S65536x1024_01_n_1_0_wf

class Facts : Prop extends Facts₀ where

variable [Facts]
-- ==== Proof.Spec.lean ====
/-
  The function both programs compute, stated once over the two argument arrays.

  `pq` is a 65536 × 2048 array whose row `r` holds a "p" half (columns 0 … 1023) followed by a "q" half (columns
  1024 … 2047); `a` is a vector of 1024 scales, one per column of a half. The result has the shape of `pq`:
      result (r, c) = pq (r, c) + a c · σ (pq (r, c + 1024))     for c < 1024      (the p half is updated),
      result (r, c) = pq (r, c)                                   for c ≥ 1024      (the q half is kept),
  where σ x = 1 / (1 + e^(-x)) is the logistic function on the extended reals (σ ⊥ = 0, σ ⊤ = 1).

  The column `c` of the p half is paired with scale number `c mod 1024` and with the q element at column
  `c mod 1024 + 1024` of the same row; for `c < 1024` these are `c` and `c + 1024`. Writing the partners with
  the remainder keeps them defined (and the statement free of proofs inside indices) at every column.

  Also here: the one law that joins the two programs. One of them applies the logistic operation; the other
  spells it out as a quotient, `1 / (1 + exp (-x))`, with the numerator and the first summand both the
  single-precision word of `1.0`. On the extended reals the logistic operation IS that expression, and the word
  `0x3F800000` denotes the real number 1, so the two agree at every extended real — nothing needs the inputs to
  be finite.
-/
import Idealize.ShloMosaic.PureOps.Ideal
import Idealize.ShloMosaic.PureOps.Ideal.Laws

noncomputable section

namespace Cert.Spec

open Idealize.ShloMosaic

/-- The shape of `pq` and of the result. -/
abbrev SPQ : Shape := ⟨2, ![65536, 2048]⟩
/-- The shape of the scale vector `a`. -/
abbrev SA : Shape := ⟨1, ![1024]⟩

/-- The scale that goes with column `c`: number `c mod 1024`. -/
def scaleIdx (i : SPQ.Idx) : SA.Idx := fun b => match b with
  | ⟨0, _⟩ => ⟨(i 1).val % 1024, by show (i 1).val % 1024 < 1024; omega⟩

/-- The q element that goes with `(r, c)`: same row, column `c mod 1024 + 1024`. -/
def gateIdx (i : SPQ.Idx) : SPQ.Idx := fun b => match b with
  | ⟨0, _⟩ => i 0
  | ⟨1, _⟩ => ⟨(i 1).val % 1024 + 1024, by show (i 1).val % 1024 + 1024 < 2048; omega⟩

/-- THE RESULT as one function of the argument arrays, index by index: the p half gains `a · σ(q)`, the q half
    is kept. -/
def G (pq : SPQ.Idx → Ideal .f32) (a : SA.Idx → Ideal .f32) : SPQ.Idx → Ideal .f32 := fun i =>
  if (i 1).val < 1024 then
    FloatOps.addf (pq i) (FloatOps.mulf (a (scaleIdx i)) (FloatOps.logistic (pq (gateIdx i))))
  else pq i

/-- The single-precision word of `1.0` denotes the real number 1. -/
theorem one_f32 : Ideal.ofBits .f32 0x3F800000#32 = 1 := by
  simp [Ideal.ofBits, Ideal.ieee, -EReal.coe_mul]
  norm_num

/-- THE JOINING LAW: the quotient `1.0 / (1.0 + exp (-x))`, in the host's operations, is the logistic
    operation, at every extended real `x`. -/
theorem quotient_eq_logistic (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  show Ideal.div (Ideal.ofBits .f32 0x3F800000#32) (Ideal.ofBits .f32 0x3F800000#32 + Ideal.exp (-x))
    = Ideal.div 1 (1 + Ideal.exp (-x))
  rw [one_f32]

end Cert.Spec

end
-- ==== Proof.KerValue.lean ====
/-
  The kernel, read at an index: after the run its output array is the function `Spec.G` of the two argument
  arrays.

  The kernel walks 64 grid points; point `t` works on rows `1024·t … 1024·t + 1023` of `pq` — a 1024 × 2048 block
  — together with the whole 1 × 1024 row that the host reshaped the scale vector `a` into. Inside the block it cuts
  the left half `p` (columns 0 … 1023) and the right half `q` (columns 1024 … 2047), forms `p + row · σ(q)` (the row
  repeated down the 1024 rows) and writes back that half followed by `q` itself. So the block's element at
  `(y₀, y₁)` is
      block (y₀, y₁) + row (0, y₁) · σ (block (y₀, y₁ + 1024))    for y₁ < 1024,
      block (y₀, y₁)                                              for y₁ ≥ 1024,
  which is `Spec.G` read at row `1024·t + y₀`, column `y₁`: the block's row offset does not enter the formula, and
  the scale read is `a`'s entry `y₁`. The 64 blocks tile the array (row `r` is in block `r / 1024`), so the array
  ends as `Spec.G` everywhere.
-/
import proofs.«131390_j36842229465134_1_alg».proof.Proof.Gen.KernelIdeal.Value
import proofs.«131390_j36842229465134_1_alg».proof.Proof.Spec
import Idealize.ShloMosaic.Lib.Pipeline.Value
import Idealize.ShloMosaic.Lib.StableHlo.Run

noncomputable section

namespace Cert.KernelIdeal.KerValue

open Cert.KernelIdeal Cert.KernelIdeal.Gen Cert.KernelIdeal.Value Idealize.ShloMosaic Idealize.ShloMosaic.TcCoe Idealize.SL.Sem
open Idealize.ShloMosaic.StableHlo
open Idealize.ShloMosaic.Pipeline (Dat)

/-! ## One block, at a block index -/

section Block

variable {F : FTy → Type} [FloatOps F]

theorem zero_offsets : (![0, 0] : Fin 2 → Nat) = fun _ => 0 := funext fun a => by fin_cases a <;> rfl

/-- Where the repeated row is read for block index `(y₀, y₁)`: entry `(0, y₁ mod 1024)`. -/
def rowAt (y : S1024x2048.Idx) : S1x1024.Idx := fun b => match b with
  | ⟨0, _⟩ => ⟨0, Nat.one_pos⟩
  | ⟨1, _⟩ => ⟨(y 1).val % 1024, by show (y 1).val % 1024 < 1024; omega⟩

/-- The block's q element that goes with block index `(y₀, y₁)`: `(y₀, y₁ mod 1024 + 1024)`. -/
def gateAt (y : S1024x2048.Idx) : S1024x2048.Idx := fun b => match b with
  | ⟨0, _⟩ => y 0
  | ⟨1, _⟩ => ⟨(y 1).val % 1024 + 1024, by show (y 1).val % 1024 + 1024 < 2048; omega⟩

/-- The row repeated down the rows, read at `(y₀, y₁ mod 1024)`, is the row's entry `(0, y₁ mod 1024)`. -/
theorem repeated_row (x1 : Vec F S1x1024 .f32) (y : S1024x2048.Idx) :
    broadcastTo S1024x1024 (shapeCast S1x1024 (View.ld x1 r0_2) shapeCasts_S1x1024_S1x1024) broadcasts_S1x1024_S1024x1024 (ix2_0 y)
      = x1 (rowAt y) := by
  refine (broadcastTo_apply (shapeCast S1x1024 (View.ld x1 r0_2) shapeCasts_S1x1024_S1x1024)
    broadcasts_S1x1024_S1024x1024 (ix2_0 y) (rowAt y) (fun a => match a with
    | ⟨0, _⟩ => by show 0 = if (1 : Nat) = 1 then 0 else (y 0).val; rw [if_pos rfl]
    | ⟨1, _⟩ => by show (y 1).val % 1024 = if (1024 : Nat) = 1 then 0 else (y 1).val % 1024; rw [if_neg (by decide)])).trans ?_
  refine (congrFun (shapeCast_self (s := S1x1024) (View.ld x1 r0_2) shapeCasts_S1x1024_S1x1024) (rowAt y)).trans ?_
  exact congrFun (View.ld_unit_zero (S := S1x1024) zero_offsets _ x1) (rowAt y)

/-- ON THE LEFT HALF of the block the body leaves `p + row · σ(q)`. -/
theorem block_p_half (x0 : Vec F S1024x2048 .f32) (x1 : Vec F S1x1024 .f32) (y : S1024x2048.Idx) (h : (y 1).val < 1024) :
    out0_2 x0 x1 y = FloatOps.addf (x0 y) (FloatOps.mulf (x1 (rowAt y)) (FloatOps.logistic (x0 (gateAt y)))) := by
  have hy1 : (y 1).val < 2048 := (y 1).isLt
  have hs : csel2_0 y = (0 : Fin 2) := Fin.ext (by show (y 1).val / 1024 = 0; omega)
  have e0 : r0_0.idx (ix2_0 y) = y := funext fun b => Fin.ext (by
    match b with
    | ⟨0, _⟩ => show 0 + 1 * (y 0).val = (y 0).val; omega
    | ⟨1, _⟩ => show 0 + 1 * ((y 1).val % 1024) = (y 1).val; omega)
  have e1 : r0_1.idx (ix2_0 y) = gateAt y := funext fun b => Fin.ext (by
    match b with
    | ⟨0, _⟩ => show 0 + 1 * (y 0).val = (y 0).val; omega
    | ⟨1, _⟩ => show 1024 + 1 * ((y 1).val % 1024) = (y 1).val % 1024 + 1024; omega)
  unfold out0_2
  rw [canon2_eq]
  show Cat2_0 (View.ld x0 r0_0) (View.ld x1 r0_2) (View.ld x0 r0_1) (csel2_0 y) (ix2_0 y) = _
  rw [hs]
  show FloatOps.addf (x0 (r0_0.idx (ix2_0 y)))
      (FloatOps.mulf (broadcastTo S1024x1024 (shapeCast S1x1024 (View.ld x1 r0_2) shapeCasts_S1x1024_S1x1024) broadcasts_S1x1024_S1024x1024 (ix2_0 y))
        (FloatOps.logistic (x0 (r0_1.idx (ix2_0 y))))) = _
  rw [e0, e1, repeated_row]

/-- ON THE RIGHT HALF of the block the body leaves `q`, that is, the block's own element. -/
theorem block_q_half (x0 : Vec F S1024x2048 .f32) (x1 : Vec F S1x1024 .f32) (y : S1024x2048.Idx) (h : ¬ (y 1).val < 1024) :
    out0_2 x0 x1 y = x0 y := by
  have hy1 : (y 1).val < 2048 := (y 1).isLt
  have hs : csel2_0 y = (1 : Fin 2) := Fin.ext (by show (y 1).val / 1024 = 1; omega)
  have e1 : r0_1.idx (ix2_0 y) = y := funext fun b => Fin.ext (by
    match b with
    | ⟨0, _⟩ => show 0 + 1 * (y 0).val = (y 0).val; omega
    | ⟨1, _⟩ => show 1024 + 1 * ((y 1).val % 1024) = (y 1).val; omega)
  unfold out0_2
  rw [canon2_eq]
  show Cat2_0 (View.ld x0 r0_0) (View.ld x1 r0_2) (View.ld x0 r0_1) (csel2_0 y) (ix2_0 y) = _
  rw [hs]
  show x0 (r0_1.idx (ix2_0 y)) = _
  rw [e1]

end Block

/-! ## The arrays the region finds -/

variable (m : (ℓ : Loc nD τ sig) → Buf (Elt Ideal) ℓ) (ρ : Dev nD → PrngReg)

/-- The 1 × 1024 row the region stages is the scale vector reshaped. -/
theorem row_is_reshape (c : Dev nD) :
    (V m c main_v0 : S1x1024.Idx → Elt Ideal .f32)
      = shapeCast S1x1024 (m ((c : Thread nD τ).loc main_arg1)) shapeCasts_S1024_S1x1024 := by
  dsimp only [Gen.V, Gen.hostOps0]
  after_results
  rfl

/-- Its entry `(0, k)` is the vector's entry `k`. -/
theorem row_apply (c : Dev nD) (z : S1x1024.Idx) (k : S1024.Idx) (hk : (k 0).val = (z 1).val) :
    V m c main_v0 z = m ((c : Thread nD τ).loc main_arg1) k := by
  have hz0 : (z 0).val < 1 := (z 0).isLt
  rw [row_is_reshape]
  exact shapeCast_apply _ shapeCasts_S1024_S1x1024 z k (by
    rw [Shape.rowMajor_val_one, Shape.rowMajor_val_two]
    show (k 0).val = (z 0).val * 1024 + (z 1).val
    omega)

/-! ## From blocks to the array -/

/-- The printed index maps over the 64 points: the input block of `pq` is the output's block; the row's block
    index is constant; the output's row-block index is the point's number and its column-block index 0. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- WHAT POINT `t` WRITES BACK is block `t` of `Spec.G` of the arrays the region finds. -/
theorem flushed_eq (c : Dev nD) (t : Fin cfg0.N) :
    (dats m 0 c).flushed 2 t
      = ((cfg0.win 2).blk t).view.read (Elt Ideal) (Cert.Spec.G (V m c main_arg0) (m ((c : Thread nD τ).loc main_arg1))) := by
  rw [flushed2]
  obtain ⟨e00, e01, e21, e10, e11, e20⟩ := index_facts t
  funext y
  have hy0 : (y 0).val < 1024 := (y 0).isLt
  have hy1 : (y 1).val < 2048 := (y 1).isLt
  show out0_2 (iblk m c 0 t) (iblk m c 1 t) y
    = Cert.Spec.G (V m c main_arg0) (m ((c : Thread nD τ).loc main_arg1)) (((cfg0.win 2).blk t).view.emb y)
  have hcol : ((((cfg0.win 2).blk t).view.emb y) 1).val = (y 1).val := by
    show win0_2.index t (1 : Fin 2) * 2048 + 1 * (y 1).val = (y 1).val
    omega
  -- the input block's element under a block index is the array's element under the output's block
  have hsame : iblk m c 0 t y = V m c main_arg0 (((cfg0.win 2).blk t).view.emb y) := by
    show V m c main_arg0 (((cfg0.win 0).blk t).view.emb y) = V m c main_arg0 (((cfg0.win 2).blk t).view.emb y)
    refine congrArg _ (funext fun b => Fin.ext ?_)
    match b with
    | ⟨0, _⟩ => show win0_0.index t (0 : Fin 2) * 1024 + 1 * (y 0).val = win0_2.index t (0 : Fin 2) * 1024 + 1 * (y 0).val; omega
    | ⟨1, _⟩ => show win0_0.index t (1 : Fin 2) * 2048 + 1 * (y 1).val = win0_2.index t (1 : Fin 2) * 2048 + 1 * (y 1).val; omega
  unfold Cert.Spec.G
  by_cases h : (y 1).val < 1024
  · rw [if_pos (by rw [hcol]; exact h)]
    refine (block_p_half (iblk m c 0 t) (iblk m c 1 t) y h).trans ?_
    have hgate : iblk m c 0 t (gateAt y) = V m c main_arg0 (Cert.Spec.gateIdx (((cfg0.win 2).blk t).view.emb y)) := by
      show V m c main_arg0 (((cfg0.win 0).blk t).view.emb (gateAt y)) = _
      refine congrArg _ (funext fun b => Fin.ext ?_)
      match b with
      | ⟨0, _⟩ => show win0_0.index t (0 : Fin 2) * 1024 + 1 * (y 0).val = win0_2.index t (0 : Fin 2) * 1024 + 1 * (y 0).val; omega
      | ⟨1, _⟩ =>
        show win0_0.index t (1 : Fin 2) * 2048 + 1 * ((y 1).val % 1024 + 1024)
          = (win0_2.index t (1 : Fin 2) * 2048 + 1 * (y 1).val) % 1024 + 1024
        omega
    have hrow : iblk m c 1 t (rowAt y) = m ((c : Thread nD τ).loc main_arg1) (Cert.Spec.scaleIdx (((cfg0.win 2).blk t).view.emb y)) := by
      show V m c main_v0 (((cfg0.win 1).blk t).view.emb (rowAt y)) = _
      refine row_apply m c _ _ ?_
      show (win0_2.index t (1 : Fin 2) * 2048 + 1 * (y 1).val) % 1024 = win0_1.index t (1 : Fin 2) * 1024 + 1 * ((y 1).val % 1024)
      omega
    rw [hsame, hgate, hrow]
  · rw [if_neg (by rw [hcol]; exact h)]
    exact (block_q_half (iblk m c 0 t) (iblk m c 1 t) y h).trans hsame

/-- An index of the array is in point `t`'s block iff each coordinate is in the block's range on its axis. -/
theorem mem_block (t : Fin cfg0.N) (i : S65536x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v1).slice (win0_2.rect t)).set ↔ _
  rw [View.set_slice_whole, Rect.mem_set_unit]
  exact Iff.rfl

/-- THE BLOCKS TILE THE ARRAY: row `r` is in the block of point `r / 1024`, and every point writes back. -/
theorem cover (i : S65536x2048.Idx) :
    ∃ t : Fin cfg0.N, (cfg0.win 2).flush t = true ∧ i ∈ ((cfg0.win 2).blk t).view.set := by
  have hi0 : (i 0).val < 65536 := (i 0).isLt
  have hi1 : (i 1).val < 2048 := (i 1).isLt
  have hN : cfg0.N = 64 := N_0
  have hlt : (i 0).val / 1024 < cfg0.N := by rw [hN]; omega
  obtain ⟨-, -, e21, -, -, e20⟩ := index_facts ⟨(i 0).val / 1024, hlt⟩
  have e20' : win0_2.index ⟨(i 0).val / 1024, hlt⟩ (0 : Fin 2) = (i 0).val / 1024 := e20
  refine ⟨⟨(i 0).val / 1024, hlt⟩, flush0_2 _, ?_⟩
  rw [mem_block]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    omega
  | ⟨1, _⟩ =>
    show win0_2.index ⟨(i 0).val / 1024, hlt⟩ (1 : Fin 2) * 2048 ≤ (i 1).val
      ∧ (i 1).val < win0_2.index ⟨(i 0).val / 1024, hlt⟩ (1 : Fin 2) * 2048 + 2048
    omega

/-- THE OUTPUT ARRAY after the run is `Spec.G` of the argument arrays as launched. -/
theorem final (c : Dev nD) :
    (dats m 0 c).arrAt 2 cfg0.N
      = Cert.Spec.G (m ((c : Thread nD τ).loc main_arg0)) (m ((c : Thread nD τ).loc main_arg1)) := by
  have h := (dats m 0 c).arrAt_eq_of_cover 2
    (Cert.Spec.G (V m c main_arg0) (m ((c : Thread nD τ).loc main_arg1))) (fun t _ => flushed_eq m c t) cover
  rw [V_main_arg0] at h
  exact h

/-- THE RUN, read: every weakly fair execution ends with the result array at `Spec.G` of the arguments and the
    arguments unchanged. -/
theorem run : θ_run defs (onTc (τ := τ) (main (F := Ideal))) ⟨m, fun _ => 0, ρ⟩ fun r => ∀ c : Dev nD,
      r.2.mem ((c : Thread nD τ).loc main_v1)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KerValue

end
-- ==== Proof.LibScatterOnce.lean ====
/-
  A scatter with an arbitrary body `f`, read at one index of the result when at most one update position
  lands there.

  The scatter is the left fold, over all update positions in row-major order, of the step that replaces the
  element at the position's result index `i` by `f` of that element and the position's update element (a
  position whose result index falls outside the operand is skipped). Reading the fold at a fixed result
  index `i` never needs its value elsewhere: a step whose result index is not `i` leaves the element at `i`
  as it was. So
    * if no update position lands on `i`, the result at `i` is the operand's element;
    * if exactly one update position `j₀` lands on `i`, the result at `i` is `f (operand i) (update j₀)`.
  Both are proved by induction over the list of positions, for any list without repeats: the fold itself is
  never evaluated. With `f` an addition this is `.at[…].add` over a window each of whose elements meets one
  element of the operand.
-/
import Idealize.ShloMosaic.PureOps.ShapeOps

namespace Cert.LibScatterOnce

open Idealize.ShloMosaic

variable {s si u : Shape} {w : Nat} {α : Type}

/-- One step of the fold: position `n` of the update combines its element into the element at its result
    index. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the fold of `step` over all positions. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose result index is not `i` leaves the element at `i`. -/
theorem step_apply_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  cases hq : d.resultIdx? (u.rowMajor.symm n) idx with
  | none => rfl
  | some i' =>
    have hne : i ≠ i' := fun e => h (by rw [hq, e])
    exact if_neg hne

/-- A step whose result index is `i` combines its update element into the element at `i`. -/
theorem step_apply_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  exact if_pos rfl

/-- Over a list of positions none of which lands on `i`, the fold leaves the element at `i`. -/
theorem foldl_apply_of_miss (d : ScatterDims s si u) (f : α → α → α) (idx : IVec si w) (upd : u.Idx → α)
    (i : s.Idx) :
    ∀ (L : List (Fin u.numel)) (r : s.Idx → α),
      (∀ n ∈ L, d.resultIdx? (u.rowMajor.symm n) idx ≠ some i) →
      L.foldl (step d f idx upd) r i = r i
  | [], _, _ => rfl
  | n :: L, r, h => by
    rw [List.foldl_cons, foldl_apply_of_miss d f idx upd i L _ fun m hm => h m (List.mem_cons_of_mem _ hm),
      step_apply_of_ne d f idx upd r n i (h n List.mem_cons_self)]

/-- Over a list of positions without repeats, of which `n₀` and no other lands on `i`, the fold has at `i`
    the body applied to the starting element and `n₀`'s update element. -/
theorem foldl_apply_of_once (d : ScatterDims s si u) (f : α → α → α) (idx : IVec si w) (upd : u.Idx → α)
    (i : s.Idx) (n₀ : Fin u.numel) (h₀ : d.resultIdx? (u.rowMajor.symm n₀) idx = some i) :
    ∀ (L : List (Fin u.numel)) (r : s.Idx → α), L.Nodup → n₀ ∈ L →
      (∀ n ∈ L, d.resultIdx? (u.rowMajor.symm n) idx = some i → n = n₀) →
      L.foldl (step d f idx upd) r i = f (r i) (upd (u.rowMajor.symm n₀))
  | [], _, _, hmem, _ => by cases hmem
  | n :: L, r, hnd, hmem, honly => by
    rw [List.foldl_cons]
    have hndL : L.Nodup := (List.nodup_cons.mp hnd).2
    have hnL : n ∉ L := (List.nodup_cons.mp hnd).1
    by_cases hn : n = n₀
    · -- the head is the one position that lands on `i`; nothing after it does
      subst hn
      rw [foldl_apply_of_miss d f idx upd i L _ fun m hm hmi =>
          hnL (honly m (List.mem_cons_of_mem _ hm) hmi ▸ hm),
        step_apply_of_eq d f idx upd r n i h₀]
    · -- the head lands elsewhere; the one position is further on
      have hmemL : n₀ ∈ L := by
        rcases List.mem_cons.mp hmem with e | h'
        · exact absurd e.symm hn
        · exact h'
      rw [foldl_apply_of_once d f idx upd i n₀ h₀ L _ hndL hmemL
          fun m hm hmi => honly m (List.mem_cons_of_mem _ hm) hmi,
        step_apply_of_ne d f idx upd r n i fun hni => hn (honly n List.mem_cons_self hni)]

/-- THE SCATTER AT AN INDEX NO UPDATE POSITION LANDS ON: the operand's element. -/
theorem scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_apply_of_miss d f idx upd i _ x fun n _ => h _

/-- THE SCATTER AT AN INDEX EXACTLY ONE UPDATE POSITION `j₀` LANDS ON: the body applied to the operand's
    element and that position's update element. -/
theorem scatter_apply_of_once (d : ScatterDims s si u) (f : α → α → α) (x : s.Idx → α) (idx : IVec si w)
    (upd : u.Idx → α) (i : s.Idx) (j₀ : u.Idx) (h₀ : d.resultIdx? j₀ idx = some i)
    (honly : ∀ j : u.Idx, d.resultIdx? j idx = some i → j = j₀) :
    Host.scatter d f x idx upd i = f (x i) (upd j₀) := by
  rw [scatter_eq_foldl]
  have h₀' : d.resultIdx? (u.rowMajor.symm (u.rowMajor j₀)) idx = some i := by
    rw [Equiv.symm_apply_apply]; exact h₀
  rw [foldl_apply_of_once d f idx upd i (u.rowMajor j₀) h₀' _ x (List.nodup_finRange _) (List.mem_finRange _)
    fun n _ hn => by rw [← honly _ hn, Equiv.apply_symm_apply]]
  rw [Equiv.symm_apply_apply]

end Cert.LibScatterOnce
-- ==== Proof.RefValue.lean ====
/-
  The reference, read at an index: its result array is the function `Spec.G` of the two argument arrays.

  The reference computes the update `u (r, c) = a c · (1 / (1 + exp (-pq (r, c + 1024))))` as a 65536 × 1024 array and
  adds it into `pq` by ONE scatter whose only start index is column 0: update position `(r, c)` lands on result
  index `(r, c)` of the 65536 × 2048 array — the window is the whole update, its rows and columns kept, the start
  column `0` read off a constant. So
    * a result index `(r, c)` with `c < 1024` is met by exactly one update position, `(r, c)` itself, and holds
      `pq (r, c) + u (r, c)`;
    * a result index with `c ≥ 1024` is met by none (an update's column is below 1024) and holds `pq (r, c)`.
  The scatter, a fold over 2^26 positions, is never evaluated: it is read at one index by the two general
  lemmas on a scatter met at most once. The update's stages are read one at a time by the generated lemmas,
  and the quotient is the logistic function (`Spec.quotient_eq_logistic`).
-/
import proofs.«131390_j36842229465134_1_alg».proof.Proof.Gen.ReferenceIdeal.Read
import proofs.«131390_j36842229465134_1_alg».proof.Proof.LibScatterOnce
import proofs.«131390_j36842229465134_1_alg».proof.Proof.Spec

noncomputable section

namespace Cert.ReferenceIdeal.RefValue

open Cert.ReferenceIdeal Cert.ReferenceIdeal.Gen Cert.ReferenceIdeal.Read Idealize.ShloMosaic

variable {F : FTy → Type} [FloatOps F]

/-! ## Where an update position lands -/

/-- Every scatter index read off the constant start is `0`. -/
theorem start_word (k : S1.Idx) : val_main_v10 (F := F) k = 0#32 := by
  rw [val_main_v10_apply, val_main_c_apply]

/-- The window starts at `0` on both axes: column `0` is the constant, rows are not scattered. -/
theorem start_zero (j : S65536x1024.Idx) (b : Fin 2) :
    ScatterDims.start scatter_S65536x2048_S1_S65536x1024_01_n_1_0 j (val_main_v10 (F := F)) b = 0 := by
  unfold ScatterDims.start
  split
  · rw [start_word]; rfl
  · rfl

/-- The window coordinate on the row axis is the update's row. -/
theorem window_row (j : S65536x1024.Idx) :
    ScatterDims.window scatter_S65536x2048_S1_S65536x1024_01_n_1_0 j (0 : Fin 2) = (j 0).val := by
  unfold ScatterDims.window
  rw [dif_pos (by decide)]
  rfl

/-- The window coordinate on the column axis is the update's column. -/
theorem window_col (j : S65536x1024.Idx) :
    ScatterDims.window scatter_S65536x2048_S1_S65536x1024_01_n_1_0 j (1 : Fin 2) = (j 1).val := by
  unfold ScatterDims.window
  rw [dif_pos (by decide)]
  rfl

/-- Update position `(r, c)` seen as an index of the wider array: the same row and column. -/
def land (j : S65536x1024.Idx) : S65536x2048.Idx := fun b => match b with
  | ⟨0, _⟩ => ⟨(j 0).val, (j 0).isLt⟩
  | ⟨1, _⟩ => ⟨(j 1).val, by have h1 : (j 1).val < 1024 := (j 1).isLt; show (j 1).val < 2048; omega⟩

/-- The update position under a result index of the p half: the same row, the column (reduced mod 1024, which
    changes nothing below 1024). -/
def under (i : S65536x2048.Idx) : S65536x1024.Idx := fun b => match b with
  | ⟨0, _⟩ => ⟨(i 0).val, (i 0).isLt⟩
  | ⟨1, _⟩ => ⟨(i 1).val % 1024, by show (i 1).val % 1024 < 1024; omega⟩

theorem land_under (i : S65536x2048.Idx) (h : (i 1).val < 1024) : land (under i) = i := by
  funext b; apply Fin.ext
  match b with
  | ⟨0, _⟩ => rfl
  | ⟨1, _⟩ => show (i 1).val % 1024 = (i 1).val; omega

theorem under_of_land (j : S65536x1024.Idx) (i : S65536x2048.Idx) (h : land j = i) : j = under i := by
  subst h; funext b; apply Fin.ext
  have h1 : (j 1).val < 1024 := (j 1).isLt
  match b with
  | ⟨0, _⟩ => rfl
  | ⟨1, _⟩ => show (j 1).val = (j 1).val % 1024; omega

/-- EVERY UPDATE POSITION LANDS, on its own row and column of the wider array. -/
theorem lands (j : S65536x1024.Idx) :
    ScatterDims.resultIdx? scatter_S65536x2048_S1_S65536x1024_01_n_1_0 j (val_main_v10 (F := F)) = some (land j) := by
  have h0 : (j 0).val < 65536 := (j 0).isLt
  have h1 : (j 1).val < 1024 := (j 1).isLt
  have hr := window_row j
  have hc := window_col j
  have h : ∀ b, 0 ≤ ScatterDims.start scatter_S65536x2048_S1_S65536x1024_01_n_1_0 j (val_main_v10 (F := F)) b
        + ScatterDims.window scatter_S65536x2048_S1_S65536x1024_01_n_1_0 j b
      ∧ ScatterDims.start scatter_S65536x2048_S1_S65536x1024_01_n_1_0 j (val_main_v10 (F := F)) b
        + ScatterDims.window scatter_S65536x2048_S1_S65536x1024_01_n_1_0 j b < S65536x2048.size b := by
    intro b
    rw [start_zero]
    match b with
    | ⟨0, _⟩ =>
      show (0 : Int) ≤ 0 + ((ScatterDims.window scatter_S65536x2048_S1_S65536x1024_01_n_1_0 j (0 : Fin 2) : Nat) : Int)
        ∧ (0 : Int) + ((ScatterDims.window scatter_S65536x2048_S1_S65536x1024_01_n_1_0 j (0 : Fin 2) : Nat) : Int) < ((65536 : Nat) : Int)
      rw [hr]; omega
    | ⟨1, _⟩ =>
      show (0 : Int) ≤ 0 + ((ScatterDims.window scatter_S65536x2048_S1_S65536x1024_01_n_1_0 j (1 : Fin 2) : Nat) : Int)
        ∧ (0 : Int) + ((ScatterDims.window scatter_S65536x2048_S1_S65536x1024_01_n_1_0 j (1 : Fin 2) : Nat) : Int) < ((2048 : Nat) : Int)
      rw [hc]; omega
  unfold ScatterDims.resultIdx?
  rw [dif_pos h]
  refine congrArg some (funext fun b => Fin.ext ?_)
  show (ScatterDims.start scatter_S65536x2048_S1_S65536x1024_01_n_1_0 j (val_main_v10 (F := F)) b
      + ScatterDims.window scatter_S65536x2048_S1_S65536x1024_01_n_1_0 j b).toNat = (land j b).val
  rw [start_zero]
  match b with
  | ⟨0, _⟩ =>
    show ((0 : Int) + ((ScatterDims.window scatter_S65536x2048_S1_S65536x1024_01_n_1_0 j (0 : Fin 2) : Nat) : Int)).toNat = (j 0).val
    rw [hr]; omega
  | ⟨1, _⟩ =>
    show ((0 : Int) + ((ScatterDims.window scatter_S65536x2048_S1_S65536x1024_01_n_1_0 j (1 : Fin 2) : Nat) : Int)).toNat = (j 1).val
    rw [hc]; omega

/-! ## The scatter at an index -/

/-- On the p half (column below 1024) the scatter combines the operand's element with the one update element
    under it. -/
theorem scatter_p_half {α : Type} (f : α → α → α) (x : S65536x2048.Idx → α) (upd : S65536x1024.Idx → α)
    (i : S65536x2048.Idx) (h : (i 1).val < 1024) :
    Host.scatter scatter_S65536x2048_S1_S65536x1024_01_n_1_0 f x (val_main_v10 (F := F)) upd i = f (x i) (upd (under i)) :=
  Cert.LibScatterOnce.scatter_apply_of_once _ f x _ upd i (under i) (by rw [lands, land_under i h])
    (fun j hj => under_of_land j i (by rw [lands] at hj; exact Option.some.inj hj))

/-- On the q half (column 1024 or more) no update lands: the scatter leaves the operand's element. -/
theorem scatter_q_half {α : Type} (f : α → α → α) (x : S65536x2048.Idx → α) (upd : S65536x1024.Idx → α)
    (i : S65536x2048.Idx) (h : ¬ (i 1).val < 1024) :
    Host.scatter scatter_S65536x2048_S1_S65536x1024_01_n_1_0 f x (val_main_v10 (F := F)) upd i = x i :=
  Cert.LibScatterOnce.scatter_apply_of_miss _ f x _ upd i (fun j hj => by
    rw [lands] at hj
    have e : land j = i := Option.some.inj hj
    have h1 : (j 1).val < 1024 := (j 1).isLt
    have e1 : (j 1).val = (i 1).val := congrArg (fun k : S65536x2048.Idx => (k 1).val) e
    omega)

/-! ## The reference's result is `Spec.G` -/

/-- The scale the update reads at position `under i` is scale number `c mod 1024`. -/
theorem scale_index (i : S65536x2048.Idx) : idx_main_v7 (idx_main_v8 (under i)) = Cert.Spec.scaleIdx i :=
  funext fun b => Fin.ext (by match b with | ⟨0, _⟩ => rfl)

/-- The q element the update reads at position `under i` is at column `c mod 1024 + 1024` of the same row. -/
theorem gate_index (i : S65536x2048.Idx) : idx_main_v0 (under i) = Cert.Spec.gateIdx i :=
  funext fun b => Fin.ext (by
    match b with
    | ⟨0, _⟩ => rfl
    | ⟨1, _⟩ => show 1024 + (i 1).val % 1024 = (i 1).val % 1024 + 1024; omega)

/-- THE REFERENCE'S LAST STAGE, at the ideal instance, is `Spec.G` of the two argument arrays. -/
theorem result_eq (x0 : (⟨S65536x2048, .f32⟩ : BufTy).Contents (Elt Ideal)) (x1 : (⟨S1024, .f32⟩ : BufTy).Contents (Elt Ideal)) :
    val_main_v11 (F := Ideal) x0 x1 = Cert.Spec.G x0 x1 := by
  funext i
  unfold val_main_v11 Cert.Spec.G
  by_cases h : (i 1).val < 1024
  · rw [scatter_p_half _ _ _ i h, if_pos h, val_main_v9_apply, val_main_v8_apply, val_main_v7_apply, val_main_v6_apply,
      val_main_v5_apply, val_main_cst_0_apply, val_main_v4_apply, val_main_v3_apply, val_main_cst_apply,
      val_main_v2_apply, val_main_v1_apply, val_main_v0_apply, Cert.Spec.quotient_eq_logistic, scale_index, gate_index]
  · rw [scatter_q_half _ _ _ i h, if_neg h]

end Cert.ReferenceIdeal.RefValue

end
-- ==== Proof.lean ====
/- The proof of `Cert.Claim` — the three frames, the idealization's sanction and the equality of the two idealized
   programs' results.

   The kernel updates the left half of every row of a 65536 × 2048 array `pq` in place of the reference's
   `pq.at[:, :1024].add(a * sigmoid(pq[:, 1024:]))`: for a column `c < 1024` the result is
   `pq (r, c) + a c · σ (pq (r, c + 1024))`, for `c ≥ 1024` it is `pq (r, c)`, with `σ x = 1 / (1 + e^(-x))`
   (`Spec.G`, Proof/Spec.lean). Both programs end with their result array at that one function of the arguments:
     * the kernel, 64 row blocks of 1024 rows each: inside a block the body cuts the two halves, applies the
       logistic operation to the right one, multiplies by the scale row repeated down the rows, adds the left
       half and writes the two halves back side by side; the blocks tile the array (Proof/KerValue.lean, over the
       generated frame run and the generated index-by-index form of the block);
     * the reference, a chain of host operations ending in one scatter that adds a 65536 × 1024 update at column 0:
       each result element of the left half is met by exactly one update element and each of the right half by
       none (Proof/RefValue.lean, over Proof/LibScatterOnce.lean and the generated stage-by-stage reads), and its
       sigmoid is spelt `1 / (1 + exp (-x))`.
   The one law joining them is that on the extended reals the logistic operation is that quotient, the two
   single-precision words of `1.0` denoting the real 1 (`Spec.quotient_eq_logistic`): it holds at every extended
   real, so the precondition (finite inputs) is never opened. The kernel's idealization rewrote no operation, so
   its sanction is `True`. The frames of the two kernel programs are the generated ones; the reference's frame is
   its generated run with the result dropped. -/
import proofs.«131390_j36842229465134_1_alg».proof.Defs
import proofs.«131390_j36842229465134_1_alg».proof.Proof.Gen.Kernel
import proofs.«131390_j36842229465134_1_alg».proof.Proof.Gen.Kernel.Skeleton
import proofs.«131390_j36842229465134_1_alg».proof.Proof.Gen.Kernel.Launch
import proofs.«131390_j36842229465134_1_alg».proof.Proof.Gen.Kernel.Points
import proofs.«131390_j36842229465134_1_alg».proof.Proof.Gen.Kernel.Frame
import proofs.«131390_j36842229465134_1_alg».proof.Proof.Gen.KernelIdeal
import proofs.«131390_j36842229465134_1_alg».proof.Proof.Gen.KernelIdeal.Skeleton
import proofs.«131390_j36842229465134_1_alg».proof.Proof.Gen.KernelIdeal.Launch
import proofs.«131390_j36842229465134_1_alg».proof.Proof.Gen.KernelIdeal.Points
import proofs.«131390_j36842229465134_1_alg».proof.Proof.Gen.KernelIdeal.Frame
import proofs.«131390_j36842229465134_1_alg».proof.Proof.Gen.ReferenceIdeal
import proofs.«131390_j36842229465134_1_alg».proof.Proof.Gen.Pre_finite_inputs
import proofs.«131390_j36842229465134_1_alg».proof.Proof.Gen.KernelIdeal.Value
import proofs.«131390_j36842229465134_1_alg».proof.Proof.Gen.ReferenceIdeal.Run
import proofs.«131390_j36842229465134_1_alg».proof.Proof.Gen.ReferenceIdeal.Read
import proofs.«131390_j36842229465134_1_alg».proof.Proof.KerValue
import proofs.«131390_j36842229465134_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to sanction. -/
theorem preserves : Cert.preserves_Kernel_KernelIdeal := trivial

/-- From memories agreeing on `pq` and `a`, both idealized programs end with the result array at `Spec.G pq a`: the
    kernel by its blocks, the reference by its scatter read at an index. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
